-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024x4096 : Shape := ⟨3, ![8, 1024, 4096]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn_part1 {F : FTy → Type} [FloatOps F] (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  main_v18

def fn {F : FTy → Type} [FloatOps F] (main_arg0 : FVec F S8x4096x1024 .f32) (main_arg1 : FVec F S8x1024x4096 .f32) (main_arg2 : FVec F S8x1024x4096 .f32) (main_arg3 : FVec F S8x4096x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1024x4096 .f32 := Host.absf main_arg2
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_v13 main_v16
-- ==== Kernel.lean ====
abbrev S8x4096x1024 : Shape := ⟨3, ![8, 4096, 1024]⟩
abbrev S8x1024x4096 : Shape := ⟨3, ![8, 1024, 4096]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x1024x4096, .f32⟩
  | .hbm, ⟨3, _⟩ => ⟨S8x4096x1024, .f32⟩
  | .hbm, ⟨4, _⟩ => ⟨S8x1024x4096, .bf16⟩
  | .hbm, ⟨5, _⟩ => ⟨S8x1024x4096, .bf16⟩
  | .hbm, ⟨6, _⟩ => ⟨S8x4096x1024, .bf16⟩
  | .hbm, ⟨7, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .bf16 = 32 ∨ (Rect.block (s := S8x1024x4096) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x1024x4096.size a
  hwx0_2 : ∀ i : grid0.Coords, EltTy.bits .bf16 = 32 ∨ (Rect.block (s := S8x1024x4096) S1x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .bf16 = 32 ∨ (Rect.block (s := S8x4096x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x4096x1024.size a
  hwx0_4 : ∀ i : grid0.Coords, EltTy.bits .f32 = 32 ∨ (Rect.block (s := S8x4096x1024) S1x1024x1024.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S8x1024x4096 : Shape := ⟨3, ![8, 1024, 4096]⟩
abbrev S8x4096x4096 : Shape := ⟨3, ![8, 4096, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x1024x4096, .f32⟩
  | .hbm, ⟨3, _⟩ => ⟨S8x4096x1024, .f32⟩
  | .hbm, ⟨4, _⟩ => ⟨S8x4096x4096, .f32⟩
  | .hbm, ⟨5, _⟩ => ⟨S8x4096x4096, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.Pieces.lean ====
/-
  What one grid step leaves behind, as plain functions of what it loaded. Every step adds its hidden block's
  partial product to the accumulator; the first step of a run of 8 clears the accumulator first (so it adds to the
  zero block), and the last step of the run also copies the finished accumulator into the output block. Each
  store covers its whole buffer and each load reads a whole buffer, so what is left is the store's value with the
  loads replaced by the buffers' contents.
-/
import proofs.«116167_j4492535791706_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step of a run leaves, in the accumulator holding `acc`, `acc` plus the step's partial product. -/
theorem scratch_B (c : Dev nD) (i : grid0.Coords) (a3 : Memref sig .tc .vmem S1x1024x1024 .f32) (h3 : a3.IsWhole) (a4 : Memref sig .tc .vmem S1x1024x512 .bf16) (h4 : a4.IsWhole) (a5 : Memref sig .tc .vmem S1x1024x512 .bf16) (h5 : a5.IsWhole) (a6 : Memref sig .tc .vmem S1x512x1024 .bf16) (h6 : a6.IsWhole) (a7 : Memref sig .tc .vmem S1x1024x1024 .f32) (h7 : a7.IsWhole) (a8 : Memref sig .tc .vmem S1024x1024 .f32) (h8 : a8.IsWhole) (hc0 : ¬cond0_0 i) (hc1 : ¬cond0_1 i) (x0 : Vec F S1x1024x1024 .f32) (x1 : Vec F S1x1024x512 .bf16) (x2 : Vec F S1x1024x512 .bf16) (x3 : Vec F S1x512x1024 .bf16) (xs0 : Vec F S1024x1024 .f32) :
    sout0_B_0 c i a3 h3 a4 h4 a5 h5 a6 h6 a7 h7 a8 h8 hc0 hc1 x0 x1 x2 x3 xs0 = k0_pay2 x0 x1 x2 x3 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz2]
  simp only [View.readAt_eq_ld, h3.read_unread, h4.read_unread, h5.read_unread, h6.read_unread, h8.read_unread,
    View.ld_unit_zero (S := S1x1024x1024) hz3, View.ld_unit_zero (S := S1x1024x512) hz3,
    View.ld_unit_zero (S := S1x512x1024) hz3, View.ld_unit_zero (S := S1024x1024) hz2]

/-- The last step of a run leaves the same in the accumulator … -/
theorem scratch_C (c : Dev nD) (i : grid0.Coords) (a3 : Memref sig .tc .vmem S1x1024x1024 .f32) (h3 : a3.IsWhole) (a4 : Memref sig .tc .vmem S1x1024x512 .bf16) (h4 : a4.IsWhole) (a5 : Memref sig .tc .vmem S1x1024x512 .bf16) (h5 : a5.IsWhole) (a6 : Memref sig .tc .vmem S1x512x1024 .bf16) (h6 : a6.IsWhole) (a7 : Memref sig .tc .vmem S1x1024x1024 .f32) (h7 : a7.IsWhole) (a8 : Memref sig .tc .vmem S1024x1024 .f32) (h8 : a8.IsWhole) (hc0 : ¬cond0_0 i) (hc1 : cond0_1 i) (x0 : Vec F S1x1024x1024 .f32) (x1 : Vec F S1x1024x512 .bf16) (x2 : Vec F S1x1024x512 .bf16) (x3 : Vec F S1x512x1024 .bf16) (xs0 : Vec F S1024x1024 .f32) :
    sout0_C_0 c i a3 h3 a4 h4 a5 h5 a6 h6 a7 h7 a8 h8 hc0 hc1 x0 x1 x2 x3 xs0 = k0_pay2 x0 x1 x2 x3 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz2]
  simp only [View.readAt_eq_ld, h3.read_unread, h4.read_unread, h5.read_unread, h6.read_unread, h8.read_unread,
    View.ld_unit_zero (S := S1x1024x1024) hz3, View.ld_unit_zero (S := S1x1024x512) hz3,
    View.ld_unit_zero (S := S1x512x1024) hz3, View.ld_unit_zero (S := S1024x1024) hz2]

/-- … and copies that finished accumulator into the output block. -/
theorem out_C (c : Dev nD) (i : grid0.Coords) (a3 : Memref sig .tc .vmem S1x1024x1024 .f32) (h3 : a3.IsWhole) (a4 : Memref sig .tc .vmem S1x1024x512 .bf16) (h4 : a4.IsWhole) (a5 : Memref sig .tc .vmem S1x1024x512 .bf16) (h5 : a5.IsWhole) (a6 : Memref sig .tc .vmem S1x512x1024 .bf16) (h6 : a6.IsWhole) (a7 : Memref sig .tc .vmem S1x1024x1024 .f32) (h7 : a7.IsWhole) (a8 : Memref sig .tc .vmem S1024x1024 .f32) (h8 : a8.IsWhole) (hc0 : ¬cond0_0 i) (hc1 : cond0_1 i) (x0 : Vec F S1x1024x1024 .f32) (x1 : Vec F S1x1024x512 .bf16) (x2 : Vec F S1x1024x512 .bf16) (x3 : Vec F S1x512x1024 .bf16) (xs0 : Vec F S1024x1024 .f32) :
    out0_C_4 c i a3 h3 a4 h4 a5 h5 a6 h6 a7 h7 a8 h8 hc0 hc1 x0 x1 x2 x3 xs0 = k0_pay3 (k0_pay2 x0 x1 x2 x3 xs0) := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz3, View.readCov_unit_zero (S := S1024x1024) _ hz2]
  simp only [View.readAt_eq_ld, h3.read_unread, h4.read_unread, h5.read_unread, h6.read_unread, h8.read_unread,
    View.ld_unit_zero (S := S1x1024x1024) hz3, View.ld_unit_zero (S := S1x1024x512) hz3,
    View.ld_unit_zero (S := S1x512x1024) hz3, View.ld_unit_zero (S := S1024x1024) hz2]

/-- The first step of a run clears the accumulator and leaves the zero block plus its partial product. -/
theorem scratch_A (c : Dev nD) (i : grid0.Coords) (a3 : Memref sig .tc .vmem S1x1024x1024 .f32) (h3 : a3.IsWhole) (a4 : Memref sig .tc .vmem S1x1024x512 .bf16) (h4 : a4.IsWhole) (a5 : Memref sig .tc .vmem S1x1024x512 .bf16) (h5 : a5.IsWhole) (a6 : Memref sig .tc .vmem S1x512x1024 .bf16) (h6 : a6.IsWhole) (a7 : Memref sig .tc .vmem S1x1024x1024 .f32) (h7 : a7.IsWhole) (a8 : Memref sig .tc .vmem S1024x1024 .f32) (h8 : a8.IsWhole) (hc0 : cond0_0 i) (hc1 : ¬cond0_1 i) (x0 : Vec F S1x1024x1024 .f32) (x1 : Vec F S1x1024x512 .bf16) (x2 : Vec F S1x1024x512 .bf16) (x3 : Vec F S1x512x1024 .bf16) :
    sout0_A_0 c i a3 h3 a4 h4 a5 h5 a6 h6 a7 h7 a8 h8 hc0 hc1 x0 x1 x2 x3 = k0_pay2 x0 x1 x2 x3 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h5.read_unread, h6.read_unread, h8.read_unread,
    View.ld_unit_zero (S := S1x1024x1024) hz3, View.ld_unit_zero (S := S1x1024x512) hz3,
    View.ld_unit_zero (S := S1x512x1024) hz3, View.ld_unit_zero (S := S1024x1024) hz2]

end Cert.KernelIdeal.Pieces

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Payload.lean ====
/-
  One grid step's arithmetic, read entry by entry over the extended reals. The step holds a block of 1024 token
  rows (1024 features each), a block of 512 hidden units of each input projection, and the matching 512 rows of
  the output projection. For token row `r` and hidden unit `j` of the block it forms the two projections
  (sums over the 1024 features), gates one by the other, and for output feature `h` sums the gated activations
  against the output projection over the block's 512 hidden units; that partial product is added to the
  accumulator. Changes of float format are the identity here, and a product accumulated into the zero splat is the
  plain sum.
-/
import proofs.«116167_j4492535791706_2_alg».proof.Proof.Gen.KernelIdeal.Skeleton
import proofs.«116167_j4492535791706_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen
open scoped BigOperators

/-- Token row `r` of the step's block projected onto hidden unit `j` of the step's weight block. -/
def stepProj (xb : Vec Ideal S1x1024x1024 .f32) (wb : Vec Ideal S1x1024x512 .bf16) (r : Fin 1024) (j : Fin 512) : EReal :=
  ∑ k : Fin 1024, xb (ix3 (0 : Fin 1) r k) * wb (ix3 (0 : Fin 1) k j)

/-- The gated activation of row `r` at hidden unit `j` of the block. -/
def stepHidden (xb : Vec Ideal S1x1024x1024 .f32) (wgb wub : Vec Ideal S1x1024x512 .bf16) (r : Fin 1024) (j : Fin 512) : EReal :=
  (stepProj xb wgb r j * Ideal.logistic (stepProj xb wgb r j)) * stepProj xb wub r j

/-- The step's partial product at `(r, h)`: the block's 512 hidden units against the output projection. -/
def stepTerm (xb : Vec Ideal S1x1024x1024 .f32) (wgb wub : Vec Ideal S1x1024x512 .bf16) (wdb : Vec Ideal S1x512x1024 .bf16)
    (r h : Fin 1024) : EReal :=
  ∑ j : Fin 512, stepHidden xb wgb wub r j * wdb (ix3 (0 : Fin 1) j h)

/-- An input projection of the step, as the body spells it, at `(r, j)`. -/
theorem proj_apply (xb : Vec Ideal S1x1024x1024 .f32) (wb : Vec Ideal S1x1024x512 .bf16) (r : Fin 1024) (j : Fin 512) :
    matmul dot_S1024x1024_S1024x512_S1024x512_1_0_0_1_n_n none
      (truncf .bf16 (shapeCast S1024x1024 xb Facts₀.shapeCasts_S1x1024x1024_S1024x1024) Facts₀.bitsLt_bf16_f32)
      (shapeCast S1024x512 wb Facts₀.shapeCasts_S1x1024x512_S1024x512 : FVec Ideal S1024x512 .bf16)
      (constant (F := Ideal) S1024x512 .f32 0x00000000#32) (ix2 r j) = stepProj xb wb r j := by
  refine (Cert.PlainDot.matmul_zero_apply _ rfl none _ _ r j).trans ?_
  unfold stepProj
  refine Finset.sum_congr rfl fun k _ => ?_
  exact congrArg₂ (· * ·) (shapeCast_1ab_ab_apply xb _ r k) (shapeCast_1ab_ab_apply wb _ k j)

/-- The accumulating store's value at `(r, h)`: what the accumulator held there plus the step's partial product. -/
theorem pay2_apply (xb : Vec Ideal S1x1024x1024 .f32) (wgb wub : Vec Ideal S1x1024x512 .bf16) (wdb : Vec Ideal S1x512x1024 .bf16)
    (acc : Vec Ideal S1024x1024 .f32) (r h : Fin 1024) :
    k0_pay2 (F := Ideal) xb wgb wub wdb acc (ix2 r h) = acc (ix2 r h) + stepTerm xb wgb wub wdb r h := by
  unfold k0_pay2
  refine (congrFun (shapeCast_self _ _) (ix2 r h)).trans ?_
  refine (addf_apply _ _ (ix2 r h)).trans ?_
  refine congrArg (acc (ix2 r h) + ·) ?_
  refine (Cert.PlainDot.matmul_zero_apply _ rfl none _ _ r h).trans ?_
  unfold stepTerm
  refine Finset.sum_congr rfl fun j _ => ?_
  refine congrArg₂ (· * ·) ?_ (shapeCast_1ab_ab_apply wdb _ j h)
  unfold stepHidden
  rw [← proj_apply xb wgb r j, ← proj_apply xb wub r j]
  rfl

/-- The clearing store's value is zero everywhere. -/
theorem pay1_apply (y : S1024x1024.Idx) : k0_pay1 (F := Ideal) y = 0 := by
  unfold k0_pay1
  refine (congrFun (shapeCast_self _ _) y).trans ?_
  exact Ideal.ofBits_zero_f32

/-- The output store's value at `(0, r, h)` is the accumulator at `(r, h)`. -/
theorem pay3_apply (acc : Vec Ideal S1024x1024 .f32) (u : Fin 1) (r h : Fin 1024) :
    k0_pay3 (F := Ideal) acc (ix3 u r h) = acc (ix2 r h) := by
  unfold k0_pay3
  exact shapeCast_ab_1ab_apply acc _ u r h

end Cert.KernelIdeal.Payload

end
-- ==== Proof.Blocks.lean ====
/-
  Which entries of the argument arrays a grid step sees. The 256 steps are numbered expert by expert, token
  block by token block, hidden block by hidden block: step `t` works for expert `t / 32`, on token block
  `(t / 8) mod 4` (1024 tokens) and hidden block `t mod 8` (512 hidden units). Its token block is rows
  `1024·((t / 8) mod 4) …` of the tokens; its two input-projection blocks are columns `512·(t mod 8) …` of
  the weights (rounded to the narrow format before the call, which changes nothing over the extended reals);
  its output-projection block is rows `512·(t mod 8) …` of the output weights.
-/
import proofs.«116167_j4492535791706_2_alg».proof.Proof.Gen.KernelIdeal.Frame
import Idealize.ShloMosaic.Lib.Pipeline.Value
import Idealize.ShloMosaic.PureOps.Ideal
import Idealize.ShloMosaic.Lib.StableHlo.Run
import Idealize.ShloMosaic.Lib.Tactic

noncomputable section

namespace Cert.KernelIdeal.Blocks

open Idealize.ShloMosaic Idealize.ShloMosaic.TcCoe Idealize.SL.Sem
open Cert.KernelIdeal Cert.KernelIdeal.Gen

variable (m : (ℓ : Loc nD τ sig) → Buf (Elt Ideal) ℓ)

/-- The printed index maps in closed form, decided over the grid. -/
theorem idx_facts : ∀ t : Fin cfg0.N,
    (win0_0.index t (0 : Fin 3) = t.val / 32 ∧ win0_0.index t (1 : Fin 3) = t.val / 8 % 4 ∧ win0_0.index t (2 : Fin 3) = 0)
    ∧ (win0_1.index t (0 : Fin 3) = t.val / 32 ∧ win0_1.index t (1 : Fin 3) = 0 ∧ win0_1.index t (2 : Fin 3) = t.val % 8)
    ∧ (win0_2.index t (0 : Fin 3) = t.val / 32 ∧ win0_2.index t (1 : Fin 3) = 0 ∧ win0_2.index t (2 : Fin 3) = t.val % 8)
    ∧ (win0_3.index t (0 : Fin 3) = t.val / 32 ∧ win0_3.index t (1 : Fin 3) = t.val % 8 ∧ win0_3.index t (2 : Fin 3) = 0)
    ∧ (win0_4.index t (0 : Fin 3) = t.val / 32 ∧ win0_4.index t (1 : Fin 3) = t.val / 8 % 4 ∧ win0_4.index t (2 : Fin 3) = 0) :=
  (by decide +kernel : ∀ t : Fin grid0.N, _)

/-- The gate weights as the call finds them: the argument, its format narrowed. -/
theorem V_gate (c : Dev nD) :
    @Eq (FVec Ideal S8x1024x4096 .bf16) (V m c main_v0)
      (truncf .bf16 (m ((c : Thread nD τ).loc main_arg1) : FVec Ideal S8x1024x4096 .f32) Facts₀.bitsLt_bf16_f32) := by
  dsimp only [Gen.V, Gen.hostOps0]; after_results <;> rfl
/-- The up weights as the call finds them. -/
theorem V_up (c : Dev nD) :
    @Eq (FVec Ideal S8x1024x4096 .bf16) (V m c main_v1)
      (truncf .bf16 (m ((c : Thread nD τ).loc main_arg2) : FVec Ideal S8x1024x4096 .f32) Facts₀.bitsLt_bf16_f32) := by
  dsimp only [Gen.V, Gen.hostOps0]; after_results <;> rfl
/-- The down weights as the call finds them. -/
theorem V_down (c : Dev nD) :
    @Eq (FVec Ideal S8x4096x1024 .bf16) (V m c main_v2)
      (truncf .bf16 (m ((c : Thread nD τ).loc main_arg3) : FVec Ideal S8x4096x1024 .f32) Facts₀.bitsLt_bf16_f32) := by
  dsimp only [Gen.V, Gen.hostOps0]; after_results <;> rfl

/-- Step `t`'s token block at `(0, r, k)` is the tokens at `(t / 32, 1024·((t / 8) mod 4) + r, k)`. -/
theorem tok_apply (c : Dev nD) (t : Fin cfg0.N) (y : S1x1024x1024.Idx) (k : S8x4096x1024.Idx)
    (h0 : (k 0).val = t.val / 32) (h1 : (k 1).val = t.val / 8 % 4 * 1024 + (y 1).val) (h2 : (k 2).val = (y 2).val) :
    (iblk m c 0 t : Vec Ideal S1x1024x1024 .f32) y = (m ((c : Thread nD τ).loc main_arg0) : S8x4096x1024.Idx → EReal) k := by
  obtain ⟨⟨e0, e1, e2⟩, -⟩ := idx_facts t
  unfold iblk
  rw [View.read_apply]
  show V m c main_arg0 _ = m (c.tc.loc main_arg0) _
  rw [V_main_arg0]
  refine congrArg _ ?_
  funext a
  apply Fin.ext
  match a with
  | ⟨0, _⟩ => show win0_0.index t 0 * 1 + 1 * (y 0).val = (k 0).val; have hy : (y 0).val < 1 := (y 0).isLt; rw [e0, h0]; omega
  | ⟨1, _⟩ => show win0_0.index t 1 * 1024 + 1 * (y 1).val = (k 1).val; rw [e1, h1]; omega
  | ⟨2, _⟩ => show win0_0.index t 2 * 1024 + 1 * (y 2).val = (k 2).val; rw [e2, h2]; omega

/-- Step `t`'s gate block at `(0, k, j)` is the gate weights at `(t / 32, k, 512·(t mod 8) + j)`. -/
theorem gate_apply (c : Dev nD) (t : Fin cfg0.N) (y : S1x1024x512.Idx) (k : S8x1024x4096.Idx)
    (h0 : (k 0).val = t.val / 32) (h1 : (k 1).val = (y 1).val) (h2 : (k 2).val = t.val % 8 * 512 + (y 2).val) :
    (iblk m c 1 t : Vec Ideal S1x1024x512 .bf16) y = (m ((c : Thread nD τ).loc main_arg1) : S8x1024x4096.Idx → EReal) k := by
  obtain ⟨-, ⟨e0, e1, e2⟩, -⟩ := idx_facts t
  unfold iblk
  rw [View.read_apply]
  show (V m c main_v0 : S8x1024x4096.Idx → EReal) _ = m (c.tc.loc main_arg1) _
  rw [V_gate]
  show m (c.tc.loc main_arg1) _ = m (c.tc.loc main_arg1) _
  refine congrArg _ ?_
  funext a
  apply Fin.ext
  match a with
  | ⟨0, _⟩ => show win0_1.index t 0 * 1 + 1 * (y 0).val = (k 0).val; have hy : (y 0).val < 1 := (y 0).isLt; rw [e0, h0]; omega
  | ⟨1, _⟩ => show win0_1.index t 1 * 1024 + 1 * (y 1).val = (k 1).val; rw [e1, h1]; omega
  | ⟨2, _⟩ => show win0_1.index t 2 * 512 + 1 * (y 2).val = (k 2).val; rw [e2, h2]; omega

/-- Step `t`'s up block at `(0, k, j)` is the up weights at `(t / 32, k, 512·(t mod 8) + j)`. -/
theorem up_apply (c : Dev nD) (t : Fin cfg0.N) (y : S1x1024x512.Idx) (k : S8x1024x4096.Idx)
    (h0 : (k 0).val = t.val / 32) (h1 : (k 1).val = (y 1).val) (h2 : (k 2).val = t.val % 8 * 512 + (y 2).val) :
    (iblk m c 2 t : Vec Ideal S1x1024x512 .bf16) y = (m ((c : Thread nD τ).loc main_arg2) : S8x1024x4096.Idx → EReal) k := by
  obtain ⟨-, -, ⟨e0, e1, e2⟩, -⟩ := idx_facts t
  unfold iblk
  rw [View.read_apply]
  show (V m c main_v1 : S8x1024x4096.Idx → EReal) _ = m (c.tc.loc main_arg2) _
  rw [V_up]
  show m (c.tc.loc main_arg2) _ = m (c.tc.loc main_arg2) _
  refine congrArg _ ?_
  funext a
  apply Fin.ext
  match a with
  | ⟨0, _⟩ => show win0_2.index t 0 * 1 + 1 * (y 0).val = (k 0).val; have hy : (y 0).val < 1 := (y 0).isLt; rw [e0, h0]; omega
  | ⟨1, _⟩ => show win0_2.index t 1 * 1024 + 1 * (y 1).val = (k 1).val; rw [e1, h1]; omega
  | ⟨2, _⟩ => show win0_2.index t 2 * 512 + 1 * (y 2).val = (k 2).val; rw [e2, h2]; omega

/-- Step `t`'s down block at `(0, j, h)` is the down weights at `(t / 32, 512·(t mod 8) + j, h)`. -/
theorem down_apply (c : Dev nD) (t : Fin cfg0.N) (y : S1x512x1024.Idx) (k : S8x4096x1024.Idx)
    (h0 : (k 0).val = t.val / 32) (h1 : (k 1).val = t.val % 8 * 512 + (y 1).val) (h2 : (k 2).val = (y 2).val) :
    (iblk m c 3 t : Vec Ideal S1x512x1024 .bf16) y = (m ((c : Thread nD τ).loc main_arg3) : S8x4096x1024.Idx → EReal) k := by
  obtain ⟨-, -, -, ⟨e0, e1, e2⟩, -⟩ := idx_facts t
  unfold iblk
  rw [View.read_apply]
  show (V m c main_v2 : S8x4096x1024.Idx → EReal) _ = m (c.tc.loc main_arg3) _
  rw [V_down]
  show m (c.tc.loc main_arg3) _ = m (c.tc.loc main_arg3) _
  refine congrArg _ ?_
  funext a
  apply Fin.ext
  match a with
  | ⟨0, _⟩ => show win0_3.index t 0 * 1 + 1 * (y 0).val = (k 0).val; have hy : (y 0).val < 1 := (y 0).isLt; rw [e0, h0]; omega
  | ⟨1, _⟩ => show win0_3.index t 1 * 512 + 1 * (y 1).val = (k 1).val; rw [e1, h1]; omega
  | ⟨2, _⟩ => show win0_3.index t 2 * 1024 + 1 * (y 2).val = (k 2).val; rw [e2, h2]; omega

end Cert.KernelIdeal.Blocks

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.Swiglu.lean ====
/-
  The mathematics of the expert feed-forward layer, with no program in sight. For expert `e` and token `c` the
  layer projects the token's 1024 features through two weight matrices to 4096 hidden units each,
      g(e, c, i) = ∑ₖ x(e, c, k) · Wg(e, k, i),      u(e, c, i) = ∑ₖ x(e, c, k) · Wu(e, k, i),
  gates one projection by the other, a(e, c, i) = (g · σ(g)) · u with σ(z) = 1 / (1 + e^(−z)), and projects
  back to 1024 features,
      out(e, c, h) = ∑ᵢ a(e, c, i) · Wd(e, i, h),   the sum over all 4096 hidden units.
  Everything is read over the extended reals. The one law needed later is that the last sum may be taken hidden
  block by hidden block, 8 blocks of 512 units: addition of extended reals is commutative and associative, so
  no finiteness of the values is involved.
-/
import Idealize.ShloMosaic.Lib.ValueIdx
import Idealize.ShloMosaic.PureOps.Ideal
import proofs.«116167_j4492535791706_2_alg».proof.Proof.LibBlockSums

noncomputable section

namespace Cert.Swiglu

open Idealize.ShloMosaic Idealize.ShloMosaic.ValueIdx
open scoped BigOperators

/-- Tokens (and the result): 8 experts, 4096 tokens each, 1024 features. -/
abbrev STok : Shape := ⟨3, ![8, 4096, 1024]⟩
/-- The two input projections: 8 experts, 1024 features by 4096 hidden units. -/
abbrev SIn : Shape := ⟨3, ![8, 1024, 4096]⟩

/-- Token `c` of expert `e` projected onto hidden unit `i` through the weights `w`. -/
def proj (x : STok.Idx → EReal) (w : SIn.Idx → EReal) (e : Fin 8) (c : Fin 4096) (i : Fin 4096) : EReal :=
  ∑ k : Fin 1024, x (ix3 e c k) * w (ix3 e k i)

/-- The gated hidden activation: `(g · σ(g)) · u`. -/
def hidden (x : STok.Idx → EReal) (wg wu : SIn.Idx → EReal) (e : Fin 8) (c : Fin 4096) (i : Fin 4096) : EReal :=
  (proj x wg e c i * Ideal.logistic (proj x wg e c i)) * proj x wu e c i

/-- The layer's result at expert `e`, token `c`, feature `h`. -/
def outAt (x : STok.Idx → EReal) (wg wu : SIn.Idx → EReal) (wd : STok.Idx → EReal)
    (e : Fin 8) (c : Fin 4096) (h : Fin 1024) : EReal :=
  ∑ i : Fin 4096, hidden x wg wu e c i * wd (ix3 e i h)

/-- The layer's result as one array. -/
def out (x : STok.Idx → EReal) (wg wu : SIn.Idx → EReal) (wd : STok.Idx → EReal) : STok.Idx → EReal :=
  fun j => outAt x wg wu wd (j 0) (j 1) (j 2)

/-- The result array at an index whose coordinates are `e`, `c`, `h`. -/
theorem out_apply (x : STok.Idx → EReal) (wg wu : SIn.Idx → EReal) (wd : STok.Idx → EReal) (j : STok.Idx)
    (e : Fin 8) (c : Fin 4096) (h : Fin 1024) (h0 : (j 0).val = e.val) (h1 : (j 1).val = c.val) (h2 : (j 2).val = h.val) :
    out x wg wu wd j = outAt x wg wu wd e c h := by
  have hj : j = ix3 e c h := funext fun a => Fin.ext (by
    match a with
    | ⟨0, _⟩ => exact h0
    | ⟨1, _⟩ => exact h1
    | ⟨2, _⟩ => exact h2)
  subst hj
  rfl

/-- The word `0x3F800000` is the number one. -/
theorem ofBits_one : Ideal.ofBits .f32 0x3F800000#32 = 1 := by
  simp [Ideal.ofBits, Ideal.ieee, -EReal.coe_mul]; norm_num

/-- The gate written out: `1 / (1 + e^(−z))` is `σ(z)`. -/
theorem logistic_spelled (z : EReal) : Ideal.div 1 (1 + Ideal.exp (-z)) = Ideal.logistic z := rfl

/-- Hidden unit `j` of hidden block `t`: 8 blocks of 512 units. -/
def unit (t : Fin 8) (j : Fin 512) : Fin 4096 :=
  ⟨t.val * 512 + j.val, by have := t.isLt; have := j.isLt; omega⟩

/-- What hidden block `t` contributes to the result at `(e, c, h)`. -/
def blockTerm (x : STok.Idx → EReal) (wg wu : SIn.Idx → EReal) (wd : STok.Idx → EReal)
    (e : Fin 8) (c : Fin 4096) (h : Fin 1024) (t : Fin 8) : EReal :=
  ∑ j : Fin 512, hidden x wg wu e c (unit t j) * wd (ix3 e (unit t j) h)

/-- The result is the sum of the 8 hidden blocks' contributions. -/
theorem outAt_eq_sum_blocks (x : STok.Idx → EReal) (wg wu : SIn.Idx → EReal) (wd : STok.Idx → EReal)
    (e : Fin 8) (c : Fin 4096) (h : Fin 1024) :
    outAt x wg wu wd e c h = ∑ t : Fin 8, blockTerm x wg wu wd e c h t := by
  unfold outAt blockTerm
  exact Cert.BlockSums.sum_blocks_4096 (fun i => hidden x wg wu e c i * wd (ix3 e i h))

end Cert.Swiglu

end
-- ==== Proof.LibAccTile.lean ====
/-
  One law of an accumulator that is cleared tile by tile, in an additive commutative monoid. Points are numbered
  tile by tile, `S` consecutive points per tile. At the first point of a tile the accumulator is cleared and
  receives the point's term; at every other point it adds the point's term to what the point before left. Then at
  the last point of tile `m` it holds the sum of the tile's `S` terms.
-/
import Idealize.ShloMosaic.PureOps.Ideal
import Mathlib.Algebra.BigOperators.Fin

open scoped BigOperators

namespace Cert.BlockSums

/-- Within tile `m`, after the point at position `k` the accumulator holds the tile's first `k + 1` terms. -/
theorem acc_tile_partial {M : Type*} [AddCommMonoid M] (S : ℕ) (N : ℕ) (p acc : ℕ → M)
    (h : ∀ n, n < N → acc n = (if n % S = 0 then 0 else acc (n - 1)) + p n) (m : ℕ) :
    ∀ k, k < S → m * S + k < N → acc (m * S + k) = ∑ j ∈ Finset.range (k + 1), p (m * S + j) := by
  have hmod : ∀ k, k < S → (m * S + k) % S = k := fun k hk => by
    rw [Nat.add_comm, Nat.add_mul_mod_self_right, Nat.mod_eq_of_lt hk]
  intro k
  induction k with
  | zero =>
    intro hk hN
    rw [h _ hN, if_pos (hmod 0 hk), zero_add, Finset.sum_range_one]
  | succ k ih =>
    intro hk hN
    have hne : ¬(m * S + (k + 1)) % S = 0 := by rw [hmod (k + 1) hk]; exact Nat.succ_ne_zero k
    have hprev : m * S + (k + 1) - 1 = m * S + k := rfl
    rw [h _ hN, if_neg hne, hprev, Finset.sum_range_succ _ (k + 1),
      ih (Nat.lt_of_succ_lt hk) (lt_trans (Nat.add_lt_add_left (Nat.lt_succ_self k) (m * S)) hN)]

/-- at the last point of tile `m` the accumulator holds the sum of the tile's `S` terms -/
theorem acc_tile {M : Type*} [AddCommMonoid M] (S : ℕ) (hS : 0 < S) (N : ℕ) (p acc : ℕ → M)
    (h : ∀ n, n < N → acc n = (if n % S = 0 then 0 else acc (n - 1)) + p n)
    (m : ℕ) (hm : m * S + (S - 1) < N) :
    acc (m * S + (S - 1)) = ∑ k : Fin S, p (m * S + k.val) := by
  rw [acc_tile_partial S N p acc h m (S - 1) (Nat.sub_lt hS Nat.one_pos) hm, Nat.sub_add_cancel hS, Finset.sum_range]

/-- tiles of 8 points -/
theorem acc_tile_8 {M : Type*} [AddCommMonoid M] (N : ℕ) (p acc : ℕ → M)
    (h : ∀ n, n < N → acc n = (if n % 8 = 0 then 0 else acc (n - 1)) + p n)
    (m : ℕ) (hm : m * 8 + 7 < N) :
    acc (m * 8 + 7) = ∑ k : Fin 8, p (m * 8 + k.val) :=
  acc_tile 8 (by decide) N p acc h m hm

/-- tiles of 16 points -/
theorem acc_tile_16 {M : Type*} [AddCommMonoid M] (N : ℕ) (p acc : ℕ → M)
    (h : ∀ n, n < N → acc n = (if n % 16 = 0 then 0 else acc (n - 1)) + p n)
    (m : ℕ) (hm : m * 16 + 15 < N) :
    acc (m * 16 + 15) = ∑ k : Fin 16, p (m * 16 + k.val) :=
  acc_tile 16 (by decide) N p acc h m hm

end Cert.BlockSums
-- ==== Proof.Accum.lean ====
/-
  The accumulator over the grid, and what the finished accumulator is. Steps are numbered so that 8 consecutive
  steps `8q, …, 8q + 7` share one expert and one token block and run through the 8 hidden blocks in order. At every
  entry `(r, h)` the accumulator after step `n` is the accumulator after step `n − 1` (zero at the first step of a
  run) plus the step's partial product, which is the layer's contribution of hidden block `n mod 8` at expert
  `n / 32`, token `1024·((n / 8) mod 4) + r`, feature `h`. So after the last step of a run the accumulator holds
  the sum of the 8 hidden blocks' contributions, which is the layer's result there; that step copies it into the
  output block.
-/
import proofs.«116167_j4492535791706_2_alg».proof.Proof.Pieces
import proofs.«116167_j4492535791706_2_alg».proof.Proof.Payload
import proofs.«116167_j4492535791706_2_alg».proof.Proof.Blocks
import proofs.«116167_j4492535791706_2_alg».proof.Proof.Swiglu
import proofs.«116167_j4492535791706_2_alg».proof.Proof.LibAccTile

noncomputable section

namespace Cert.KernelIdeal.Accum

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ)

/-- The four argument arrays on core `c`, as arrays of extended reals. -/
abbrev tok (c : Dev nD) : Swiglu.STok.Idx → EReal := m ((c : Thread nD τ).loc main_arg0)
abbrev wgate (c : Dev nD) : Swiglu.SIn.Idx → EReal := m ((c : Thread nD τ).loc main_arg1)
abbrev wup (c : Dev nD) : Swiglu.SIn.Idx → EReal := m ((c : Thread nD τ).loc main_arg2)
abbrev wdown (c : Dev nD) : Swiglu.STok.Idx → EReal := m ((c : Thread nD τ).loc main_arg3)

/-- Step `n` works for this expert, -/
def expertOf (n : ℕ) : Fin 8 := ⟨n / 32 % 8, Nat.mod_lt _ (by decide)⟩
/-- its row `r` is this token, -/
def tokenOf (n : ℕ) (r : Fin 1024) : Fin 4096 :=
  ⟨n / 8 % 4 * 1024 + r.val, by have := r.isLt; have := Nat.mod_lt (n / 8) (show 0 < 4 by decide); omega⟩
/-- and it handles this hidden block. -/
def hblockOf (n : ℕ) : Fin 8 := ⟨n % 8, Nat.mod_lt _ (by decide)⟩

theorem lt256 (t : Fin cfg0.N) : t.val < 256 := lt_of_lt_of_eq t.isLt N_0

/-- An input projection inside a step is the layer's projection of the step's token onto the block's hidden unit. -/
theorem stepProj_gate (c : Dev nD) (t : Fin cfg0.N) (r : Fin 1024) (j : Fin 512) :
    Payload.stepProj (iblk m c 0 t) (iblk m c 1 t) r j
      = Swiglu.proj (tok m c) (wgate m c) (expertOf t.val) (tokenOf t.val r) (Swiglu.unit (hblockOf t.val) j) := by
  have ht := lt256 t
  unfold Payload.stepProj Swiglu.proj
  refine Finset.sum_congr rfl fun k _ => ?_
  exact congrArg₂ (· * ·)
    (Blocks.tok_apply m c t (ix3 (0 : Fin 1) r k) (ix3 (expertOf t.val) (tokenOf t.val r) k)
      (by show t.val / 32 % 8 = t.val / 32; omega) rfl rfl)
    (Blocks.gate_apply m c t (ix3 (0 : Fin 1) k j) (ix3 (expertOf t.val) k (Swiglu.unit (hblockOf t.val) j))
      (by show t.val / 32 % 8 = t.val / 32; omega) rfl rfl)

theorem stepProj_up (c : Dev nD) (t : Fin cfg0.N) (r : Fin 1024) (j : Fin 512) :
    Payload.stepProj (iblk m c 0 t) (iblk m c 2 t) r j
      = Swiglu.proj (tok m c) (wup m c) (expertOf t.val) (tokenOf t.val r) (Swiglu.unit (hblockOf t.val) j) := by
  have ht := lt256 t
  unfold Payload.stepProj Swiglu.proj
  refine Finset.sum_congr rfl fun k _ => ?_
  exact congrArg₂ (· * ·)
    (Blocks.tok_apply m c t (ix3 (0 : Fin 1) r k) (ix3 (expertOf t.val) (tokenOf t.val r) k)
      (by show t.val / 32 % 8 = t.val / 32; omega) rfl rfl)
    (Blocks.up_apply m c t (ix3 (0 : Fin 1) k j) (ix3 (expertOf t.val) k (Swiglu.unit (hblockOf t.val) j))
      (by show t.val / 32 % 8 = t.val / 32; omega) rfl rfl)

/-- A step's partial product is the layer's contribution of the step's hidden block. -/
theorem stepTerm_eq (c : Dev nD) (t : Fin cfg0.N) (r h : Fin 1024) :
    Payload.stepTerm (iblk m c 0 t) (iblk m c 1 t) (iblk m c 2 t) (iblk m c 3 t) r h
      = Swiglu.blockTerm (tok m c) (wgate m c) (wup m c) (wdown m c) (expertOf t.val) (tokenOf t.val r) h (hblockOf t.val) := by
  have ht := lt256 t
  unfold Payload.stepTerm Swiglu.blockTerm
  refine Finset.sum_congr rfl fun j _ => ?_
  refine congrArg₂ (· * ·) ?_
    (Blocks.down_apply m c t (ix3 (0 : Fin 1) j h) (ix3 (expertOf t.val) (Swiglu.unit (hblockOf t.val) j) h)
      (by show t.val / 32 % 8 = t.val / 32; omega) rfl rfl)
  unfold Payload.stepHidden Swiglu.hidden
  rw [stepProj_gate m c t r j, stepProj_up m c t r j]

/-- The first step of a run leaves zero plus its partial product. -/
theorem scratch_first (c : Dev nD) (t : Fin cfg0.N) (h0 : t.val % 8 = 0) (h1 : ¬t.val % 8 = 7) (r h : Fin 1024) :
    (outsAt0 m c t.val t.isLt).2 (ix2 r h) = 0 + Payload.stepTerm (iblk m c 0 t) (iblk m c 1 t) (iblk m c 2 t) (iblk m c 3 t) r h := by
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 r h)).trans ?_
  refine (Payload.pay2_apply (iblk m c 0 t) (iblk m c 1 t) (iblk m c 2 t) (iblk m c 3 t) (k0_pay1 (F := Ideal)) r h).trans ?_
  rw [Payload.pay1_apply]

/-- Every other step leaves what the step before left plus its partial product. -/
theorem scratch_next (c : Dev nD) (t : Fin cfg0.N) (h0 : ¬t.val % 8 = 0) (r h : Fin 1024) :
    (outsAt0 m c t.val t.isLt).2 (ix2 r h) = (outsAt0 m c (t.val - 1) (Nat.lt_of_le_of_lt (Nat.sub_le _ _) t.isLt)).2 (ix2 r h) + Payload.stepTerm (iblk m c 0 t) (iblk m c 1 t) (iblk m c 2 t) (iblk m c 3 t) r h := by
  by_cases h1 : t.val % 8 = 7
  · rw [outsAt0_C m c t h0 h1]
    dsimp only
    refine (congrFun (Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 r h)).trans ?_
    exact Payload.pay2_apply (iblk m c 0 t) (iblk m c 1 t) (iblk m c 2 t) (iblk m c 3 t) (outsAt0 m c (t.val - 1) (Nat.lt_of_le_of_lt (Nat.sub_le _ _) t.isLt)).2 r h
  · rw [outsAt0_B m c t h0 h1]
    dsimp only
    refine (congrFun (Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 r h)).trans ?_
    exact Payload.pay2_apply (iblk m c 0 t) (iblk m c 1 t) (iblk m c 2 t) (iblk m c 3 t) (outsAt0 m c (t.val - 1) (Nat.lt_of_le_of_lt (Nat.sub_le _ _) t.isLt)).2 r h

/-- The last step of a run copies the accumulator it leaves into the output block. -/
theorem out_last (c : Dev nD) (t : Fin cfg0.N) (h0 : ¬t.val % 8 = 0) (h1 : t.val % 8 = 7) (u : Fin 1) (r h : Fin 1024) :
    (outsAt0 m c t.val t.isLt).1 (ix3 u r h) = (outsAt0 m c t.val t.isLt).2 (ix2 r h) := by
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix3 u r h)).trans ?_
  refine (Payload.pay3_apply _ u r h).trans ?_
  exact (congrFun (Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 r h)).symm

/-- The accumulator's entry `(r, h)` after step `n` (zero past the grid). -/
def accAt (c : Dev nD) (r h : Fin 1024) (n : ℕ) : EReal :=
  if hn : n < cfg0.N then (outsAt0 m c n hn).2 (ix2 r h) else 0

/-- The layer's contribution that step `n` adds at `(r, h)`. -/
def termAt (c : Dev nD) (r h : Fin 1024) (n : ℕ) : EReal :=
  Swiglu.blockTerm (tok m c) (wgate m c) (wup m c) (wdown m c) (expertOf n) (tokenOf n r) h (hblockOf n)

/-- The recurrence of the accumulator along the grid. -/
theorem accAt_step (c : Dev nD) (r h : Fin 1024) (n : ℕ) (hn : n < 256) :
    accAt m c r h n = (if n % 8 = 0 then 0 else accAt m c r h (n - 1)) + termAt m c r h n := by
  have hN : n < cfg0.N := lt_of_lt_of_eq hn N_0.symm
  have hN' : n - 1 < cfg0.N := Nat.lt_of_le_of_lt (Nat.sub_le _ _) hN
  unfold accAt termAt
  rw [dif_pos hN, dif_pos hN']
  by_cases h0 : n % 8 = 0
  · rw [if_pos h0, scratch_first m c ⟨n, hN⟩ h0 (by show ¬n % 8 = 7; omega) r h, stepTerm_eq m c ⟨n, hN⟩ r h]
  · rw [if_neg h0, scratch_next m c ⟨n, hN⟩ h0 r h, stepTerm_eq m c ⟨n, hN⟩ r h]

/-- After the last step of run `q` the accumulator holds the layer's result for the run's expert and token block. -/
theorem accAt_last (c : Dev nD) (r h : Fin 1024) (q : ℕ) (hq : q < 32) :
    accAt m c r h (q * 8 + 7)
      = Swiglu.outAt (tok m c) (wgate m c) (wup m c) (wdown m c) (expertOf (q * 8)) (tokenOf (q * 8) r) h := by
  rw [Cert.BlockSums.acc_tile_8 256 (termAt m c r h) (accAt m c r h) (accAt_step m c r h) q (by omega),
    Swiglu.outAt_eq_sum_blocks]
  refine Finset.sum_congr rfl fun k _ => ?_
  have hk := k.isLt
  unfold termAt
  have e1 : expertOf (q * 8 + k.val) = expertOf (q * 8) := Fin.ext (by show (q * 8 + k.val) / 32 % 8 = q * 8 / 32 % 8; omega)
  have e2 : tokenOf (q * 8 + k.val) r = tokenOf (q * 8) r :=
    Fin.ext (by show (q * 8 + k.val) / 8 % 4 * 1024 + r.val = q * 8 / 8 % 4 * 1024 + r.val; omega)
  have e3 : hblockOf (q * 8 + k.val) = k := Fin.ext (by show (q * 8 + k.val) % 8 = k.val; omega)
  rw [e1, e2, e3]

end Cert.KernelIdeal.Accum

end
-- ==== Proof.KernelValue.lean ====
/-
  The kernel's result array. Only the last step of each run of 8 writes its output block back, and by then the
  block holds the finished accumulator, which is the layer's result for the run's expert and token block. The 32
  runs' blocks tile the result array (expert `e` and token block `b` belong to run `4e + b`), so after the call
  the whole array is the layer's result of the argument arrays.
-/
import proofs.«116167_j4492535791706_2_alg».proof.Proof.Gen.KernelIdeal.Value
import proofs.«116167_j4492535791706_2_alg».proof.Proof.Accum

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The layer's result of core `c`'s argument arrays, as contents of the result array. -/
abbrev result (c : Dev nD) : Buf (Elt Ideal) ((c : Thread nD τ).loc main_v3) :=
  Swiglu.out (Accum.tok m c) (Accum.wgate m c) (Accum.wup m c) (Accum.wdown m c)

/-- What a writing step writes back is its block of the layer's result. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have h0 : ¬t.val % 8 = 0 := by omega
  have ht := Accum.lt256 t
  obtain ⟨-, -, -, -, ⟨e0, e1, e2⟩⟩ := Blocks.idx_facts t
  rw [Value.flushed4]
  funext (y : S1x1024x1024.Idx)
  obtain ⟨u, r, h, rfl⟩ : ∃ (u : Fin 1) (r h : Fin 1024), y = ix3 u r h := ⟨y 0, y 1, y 2, eq_ix3 y⟩
  rw [View.read_apply]
  show (outsAt0 m c t.val t.isLt).1 (ix3 u r h) = _
  have hq : t.val / 8 * 8 + 7 = t.val := by omega
  have hlast := Accum.accAt_last m c r h (t.val / 8) (by omega)
  rw [hq] at hlast
  unfold Accum.accAt at hlast
  rw [dif_pos t.isLt] at hlast
  rw [Accum.out_last m c t h0 h7 u r h, hlast]
  have hu := u.isLt
  refine (Swiglu.out_apply _ _ _ _ _ _ _ _ ?_ ?_ ?_).symm
  · show win0_4.index t 0 * 1 + 1 * u.val = t.val / 8 * 8 / 32 % 8
    rw [e0]; omega
  · show win0_4.index t 1 * 1024 + 1 * r.val = t.val / 8 * 8 / 8 % 4 * 1024 + r.val
    rw [e1]; omega
  · show win0_4.index t 2 * 1024 + 1 * h.val = h.val
    rw [e2]; omega

/-- An index of the result array is in step `t`'s block iff each coordinate is in the block's range. -/
theorem mem_blk (t : Fin cfg0.N) (i : S8x4096x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v3).slice (win0_4.rect t)).set ↔ _
  rw [View.set_slice_whole, Rect.mem_set_unit]
  exact Iff.rfl

/-- Every index of the result array is in the block of the last step of its expert's and token block's run. -/
theorem cover (i : S8x4096x1024.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 1024 := (i 2).isLt
  obtain ⟨n, hn⟩ : ∃ n, n = (i 0).val * 32 + (i 1).val / 1024 * 8 + 7 := ⟨_, rfl⟩
  have hN : n < cfg0.N := lt_of_lt_of_eq (by omega : n < 256) N_0.symm
  refine ⟨⟨n, hN⟩, (flush0_4 _).mpr (by show n % 8 = 7; omega), ?_⟩
  obtain ⟨-, -, -, -, ⟨e0, e1, e2⟩⟩ := Blocks.idx_facts ⟨n, hN⟩
  rw [mem_blk]
  intro a
  match a with
  | ⟨0, _⟩ =>
    show win0_4.index ⟨n, hN⟩ 0 * 1 ≤ (i 0).val ∧ (i 0).val < win0_4.index ⟨n, hN⟩ 0 * 1 + 1
    rw [e0]; show n / 32 * 1 ≤ (i 0).val ∧ (i 0).val < n / 32 * 1 + 1; omega
  | ⟨1, _⟩ =>
    show win0_4.index ⟨n, hN⟩ 1 * 1024 ≤ (i 1).val ∧ (i 1).val < win0_4.index ⟨n, hN⟩ 1 * 1024 + 1024
    rw [e1]; show n / 8 % 4 * 1024 ≤ (i 1).val ∧ (i 1).val < n / 8 % 4 * 1024 + 1024; omega
  | ⟨2, _⟩ =>
    show win0_4.index ⟨n, hN⟩ 2 * 1024 ≤ (i 2).val ∧ (i 2).val < win0_4.index ⟨n, hN⟩ 2 * 1024 + 1024
    rw [e2]; omega

/-- After the call the result array is the layer's result of the argument arrays. -/
theorem final (c : Dev nD) : (dats m 0 c).arrAt 4 cfg0.N = result m c :=
  (dats m 0 c).arrAt_eq_of_cover 4 (result m c) (flushed_eq m c) cover

/-- The kernel's run, read: the result array at the layer's result, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.RefValue.lean ====
/-
  The reference computes the layer of `Cert.Swiglu`: its three contractions are the three sums of the
  specification (the two input projections over the 1024 features, the output projection over the 4096 hidden
  units), its gate is spelled `1 / (1 + e^(−g))`, which is `σ(g)`, and the literal `1.0` is the number one.
-/
import proofs.«116167_j4492535791706_2_alg».proof.Proof.Gen.ReferenceIdeal.Read
import proofs.«116167_j4492535791706_2_alg».proof.Proof.Swiglu

noncomputable section

namespace Cert.ReferenceIdeal.RefValue

open Cert.ReferenceIdeal Cert.ReferenceIdeal.Read Idealize.ShloMosaic Idealize.ShloMosaic.ValueIdx Cert.Swiglu
open scoped BigOperators

/-- An input projection of the reference at `(e, c, i)` reads token `(e, c, ·)` and weight column `(e, ·, i)`. -/
theorem lidx_in (e : Fin 8) (c i : Fin 4096) (k : Fin 1024) : lidx_main_v0 (ix3 e c i) k = ix3 e c k :=
  funext fun a => Fin.ext (by match a with | ⟨0, _⟩ => rfl | ⟨1, _⟩ => rfl | ⟨2, _⟩ => rfl)
theorem ridx_in (e : Fin 8) (c i : Fin 4096) (k : Fin 1024) : ridx_main_v0 (ix3 e c i) k = ix3 e k i :=
  funext fun a => Fin.ext (by match a with | ⟨0, _⟩ => rfl | ⟨1, _⟩ => rfl | ⟨2, _⟩ => rfl)
theorem lidx_in' (e : Fin 8) (c i : Fin 4096) (k : Fin 1024) : lidx_main_v2 (ix3 e c i) k = ix3 e c k :=
  funext fun a => Fin.ext (by match a with | ⟨0, _⟩ => rfl | ⟨1, _⟩ => rfl | ⟨2, _⟩ => rfl)
theorem ridx_in' (e : Fin 8) (c i : Fin 4096) (k : Fin 1024) : ridx_main_v2 (ix3 e c i) k = ix3 e k i :=
  funext fun a => Fin.ext (by match a with | ⟨0, _⟩ => rfl | ⟨1, _⟩ => rfl | ⟨2, _⟩ => rfl)
/-- The output projection at `(e, c, h)` reads hidden row `(e, c, ·)` and weight column `(e, ·, h)`. -/
theorem lidx_out (e : Fin 8) (c : Fin 4096) (h : Fin 1024) (i : Fin 4096) : lidx_main_v4 (ix3 e c h) i = ix3 e c i :=
  funext fun a => Fin.ext (by match a with | ⟨0, _⟩ => rfl | ⟨1, _⟩ => rfl | ⟨2, _⟩ => rfl)
theorem ridx_out (e : Fin 8) (c : Fin 4096) (h : Fin 1024) (i : Fin 4096) : ridx_main_v4 (ix3 e c h) i = ix3 e i h :=
  funext fun a => Fin.ext (by match a with | ⟨0, _⟩ => rfl | ⟨1, _⟩ => rfl | ⟨2, _⟩ => rfl)

/-- The reference's first contraction is the gate projection. -/
theorem gate_proj (x : STok.Idx → EReal) (wg : SIn.Idx → EReal) (e : Fin 8) (c i : Fin 4096) :
    val_main_v0 (F := Ideal) x wg (ix3 e c i) = proj x wg e c i := by
  rw [val_main_v0_apply]
  unfold proj
  refine Finset.sum_congr rfl fun k _ => ?_
  rw [lidx_in, ridx_in]

/-- The reference's second contraction is the up projection. -/
theorem up_proj (x : STok.Idx → EReal) (wu : SIn.Idx → EReal) (e : Fin 8) (c i : Fin 4096) :
    val_main_v2 (F := Ideal) x wu (ix3 e c i) = proj x wu e c i := by
  rw [val_main_v2_apply]
  unfold proj
  refine Finset.sum_congr rfl fun k _ => ?_
  rw [lidx_in', ridx_in']

/-- The product the reference feeds its last contraction is the gated hidden activation. -/
theorem hidden_eq (x : STok.Idx → EReal) (wg wu : SIn.Idx → EReal) (e : Fin 8) (c i : Fin 4096) :
    val_main_v3 (F := Ideal) x wg wu (ix3 e c i) = hidden x wg wu e c i := by
  rw [val_main_v3_apply, val_main_v1_apply, val_main_call0_v5_apply, val_main_call0_v4_apply,
    val_main_call0_cst_0_apply, val_main_call0_v3_apply, val_main_call0_v2_apply, val_main_call0_cst_apply,
    val_main_call0_v1_apply, val_main_call0_v0_apply, gate_proj, up_proj]
  simp only [Ideal.mulf_def, Ideal.hostDivf_def, Ideal.addf_def, Ideal.hostUnary_exp_def, Ideal.hostNegf_def,
    Ideal.negf_def, Ideal.ofBits_def, ofBits_one, logistic_spelled]
  rfl

/-- The reference's result is the layer's. -/
theorem result_eq (x : STok.Idx → EReal) (wg wu : SIn.Idx → EReal) (wd : STok.Idx → EReal) :
    val_main_v4 (F := Ideal) x wg wu wd = out x wg wu wd := by
  funext j
  obtain ⟨e, c, h, rfl⟩ : ∃ (e : Fin 8) (c : Fin 4096) (h : Fin 1024), j = ix3 e c h := ⟨j 0, j 1, j 2, eq_ix3 j⟩
  rw [val_main_v4_apply]
  show _ = outAt x wg wu wd e c h
  unfold outAt
  refine Finset.sum_congr rfl fun i _ => ?_
  rw [lidx_out, ridx_out, hidden_eq]

end Cert.ReferenceIdeal.RefValue

end
-- ==== Proof.lean ====
/-
  An expert feed-forward layer with a gated hidden activation, computed two ways, gives the same result over the
  extended reals.

  For each of 8 experts and each of its 4096 tokens `x(e, c, ·)` (1024 features) the layer forms two projections
  onto 4096 hidden units, `g = x · Wg` and `u = x · Wu`, the gated activation `a = (g · σ(g)) · u` with
  `σ(z) = 1 / (1 + e^(−z))`, and the output `a · Wd` (back to 1024 features).

  The reference does exactly this with three whole contractions. The kernel walks a grid of 8 × 4 × 8 steps —
  expert, block of 1024 tokens, block of 512 hidden units — and in each step forms `g`, `u` and `a` for its token
  block and hidden block only, multiplies `a` by the matching 512 rows of `Wd`, and adds the product to an
  accumulator that is cleared at the first hidden block and written out after the last. So the kernel's entry
  `(e, c, h)` is the sum over the 8 hidden blocks of the sums over each block's 512 hidden units, and the
  reference's is one sum over all 4096 hidden units: the same terms, grouped. Addition of extended reals is
  commutative and associative, so the two agree for every input, finite or not; the precondition is not used.
  Changes of float format are the identity over the extended reals, and the reference's spelled-out
  `1 / (1 + e^(−g))` is the kernel's `σ(g)`.

  The modules: `Swiglu` (the layer and the grouping law), `RefValue` (the reference computes it), `Pieces` and
  `Payload` (what one step leaves and its arithmetic entry by entry), `Blocks` (which entries of the arguments a
  step sees), `Accum` (the accumulator along the grid), `KernelValue` (the kernel's result array).
-/
import proofs.«116167_j4492535791706_2_alg».proof.Defs
import proofs.«116167_j4492535791706_2_alg».proof.Proof.Gen.Kernel
import proofs.«116167_j4492535791706_2_alg».proof.Proof.Gen.Kernel.Frame
import proofs.«116167_j4492535791706_2_alg».proof.Proof.Gen.KernelIdeal
import proofs.«116167_j4492535791706_2_alg».proof.Proof.Gen.KernelIdeal.Frame
import proofs.«116167_j4492535791706_2_alg».proof.Proof.Gen.KernelIdeal.Value
import proofs.«116167_j4492535791706_2_alg».proof.Proof.Gen.ReferenceIdeal
import proofs.«116167_j4492535791706_2_alg».proof.Proof.Gen.ReferenceIdeal.Run
import proofs.«116167_j4492535791706_2_alg».proof.Proof.Gen.ReferenceIdeal.Read
import proofs.«116167_j4492535791706_2_alg».proof.Proof.Gen.Pre_finite_inputs
import proofs.«116167_j4492535791706_2_alg».proof.Proof.KernelValue
import proofs.«116167_j4492535791706_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- Both programs end with the layer's result of the same argument arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
